-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2x512 : Shape := ⟨3, ![2048, 2, 512]⟩
abbrev S16x64 : Shape := ⟨2, ![16, 64]⟩
abbrev S16 : Shape := ⟨1, ![16]⟩
abbrev S_ : Shape := ⟨0, ![]⟩

class Facts : Prop where
  bcast_S_S2048x2x512 : S_.BroadcastsInDim S2048x2x512 (![] : Fin 0 → Fin S2048x2x512.rank)
  reducesTo_S2048x2x512_S_d0_1_2 : S2048x2x512.ReducesTo [0, 1, 2] S_
  h_S_ : 0 < S_.numel
  bcast_S_S16x64 : S_.BroadcastsInDim S16x64 (![] : Fin 0 → Fin S16x64.rank)
  reducesTo_S16x64_S_d0_1 : S16x64.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S2048x2x512 .f32) (main_arg1 : FVec F S16x64 .f32) (main_arg2 : FVec F S16 .f32) (main_arg3 : FVec F S16x64 .f32) (main_arg4 : FVec F S16 .f32) : IVec S_ 1 :=
  let main_v0 : FVec F S2048x2x512 .f32 := Host.absf main_arg0
  let main_cst : FVec F S_ .f32 := constant S_ .f32 0x7F800000#32
  let main_v1 : FVec F S2048x2x512 .f32 := broadcastInDim S2048x2x512 ![] bcast_S_S2048x2x512 main_cst
  let main_v2 : IVec S2048x2x512 1 := cmpf .olt main_v0 main_v1
  let main_c : IVec S_ 1 := constantI S_ 1 1#1
  let main_v3 : IVec S_ 1 := (fun x v => Host.reduce IntOp.andi x v reducesTo_S2048x2x512_S_d0_1_2 h_S_) main_v2 main_c
  let main_v4 : FVec F S16x64 .f32 := Host.absf main_arg1
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x64 .f32 := Host.absf main_arg3
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg4 main_v13 main_v16
-- ==== Kernel.lean ====
abbrev S2048x2x512 : Shape := ⟨3, ![2048, 2, 512]⟩
abbrev S16x64 : Shape := ⟨2, ![16, 64]⟩
abbrev S16 : Shape := ⟨1, ![16]⟩
abbrev S2x2048x512 : Shape := ⟨3, ![2, 2048, 512]⟩
abbrev S2048x16x64 : Shape := ⟨3, ![2048, 16, 64]⟩
abbrev S16x2048x64 : Shape := ⟨3, ![16, 2048, 64]⟩
abbrev S16x2048x2048 : Shape := ⟨3, ![16, 2048, 2048]⟩
abbrev S1x2048x64 : Shape := ⟨3, ![1, 2048, 64]⟩
abbrev S1x256x64 : Shape := ⟨3, ![1, 256, 64]⟩
abbrev S1x256x2048 : Shape := ⟨3, ![1, 256, 2048]⟩
abbrev S2048x64 : Shape := ⟨2, ![2048, 64]⟩
abbrev S256x64 : Shape := ⟨2, ![256, 64]⟩
abbrev S64x16 : Shape := ⟨2, ![64, 16]⟩
abbrev S256x16 : Shape := ⟨2, ![256, 16]⟩
abbrev S1x16 : Shape := ⟨2, ![1, 16]⟩
abbrev S2048x16 : Shape := ⟨2, ![2048, 16]⟩
abbrev S16x2048 : Shape := ⟨2, ![16, 2048]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 10
  | .smem => 0
  | _ => 0

abbrev bufTy : (tb : Table) → Fin (tcTables nBuf tb) → BufTy
  | .hbm, ⟨0, _⟩ => ⟨S2048x2x512, .f32⟩
  | .hbm, ⟨1, _⟩ => ⟨S16x64, .f32⟩
  | .hbm, ⟨2, _⟩ => ⟨S16, .f32⟩
  | .hbm, ⟨3, _⟩ => ⟨S16x64, .f32⟩
  | .hbm, ⟨4, _⟩ => ⟨S16, .f32⟩
  | .hbm, ⟨5, _⟩ => ⟨S2x2048x512, .f32⟩
  | .hbm, ⟨6, _⟩ => ⟨S2048x16x64, .f32⟩
  | .hbm, ⟨7, _⟩ => ⟨S16x2048x64, .f32⟩
  | .hbm, ⟨8, _⟩ => ⟨S16x2048x64, .f32⟩
  | .hbm, ⟨9, _⟩ => ⟨S16x2048x2048, .f32⟩
  | .local _ .vmem, ⟨0, _⟩ => ⟨S1x2048x64, .f32⟩
  | .local _ .vmem, ⟨1, _⟩ => ⟨S1x2048x64, .f32⟩
  | .local _ .vmem, ⟨2, _⟩ => ⟨S16x64, .f32⟩
  | .local _ .vmem, ⟨3, _⟩ => ⟨S16, .f32⟩
  | .local _ .vmem, ⟨4, _⟩ => ⟨S16x64, .f32⟩
  | .local _ .vmem, ⟨5, _⟩ => ⟨S16, .f32⟩
  | .local _ .vmem, ⟨6, _⟩ => ⟨S1x256x64, .f32⟩
  | .local _ .vmem, ⟨7, _⟩ => ⟨S1x256x64, .f32⟩
  | .local _ .vmem, ⟨8, _⟩ => ⟨S1x256x2048, .f32⟩
  | .local _ .vmem, ⟨9, _⟩ => ⟨S1x256x2048, .f32⟩
  | _, _ => ⟨S2048x2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) : Fin 3 → Nat :=
  let c0_2 : Index := 0#32
  let arg1 : BitVec 32 := BitVec.ofNat 32 (i 1).val
  let c256_i32 : BitVec 32 := 256#32
  let v0 : BitVec 32 := Scalar.muli arg1 c256_i32
  let v1 : BitVec 32 := v0
  let v4 : Index := Scalar.indexCast v1
  let c0_3 : Index := 0#32
  ![0, v4.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  transposes_S2048x2x512_S2x2048x512_1_0_2 : S2048x2x512.Transposes [1, 0, 2] S2x2048x512
  shapeCasts_S2x2048x512_S2048x16x64 : S2x2048x512.ShapeCasts S2048x16x64
  transposes_S2048x16x64_S16x2048x64_1_0_2 : S2048x16x64.Transposes [1, 0, 2] S16x2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  h_S1x256x64 : 0 < S1x256x64.numel
  shapeCasts_S1x256x64_S256x64 : S1x256x64.ShapeCasts S256x64
  inb_S16x64_S16x64_0_0 : ∀ a, (![0, 0] : Fin 2 → Nat) a + S16x64.size a ≤ S16x64.size a
  h_S16x64 : 0 < S16x64.numel
  inb_S16_S16_0 : ∀ a, (![0] : Fin 1 → Nat) a + S16.size a ≤ S16.size a
  h_S16 : 0 < S16.numel
  transposes_S16x64_p1_0_S64x16 : S16x64.Transposes [1, 0] S64x16
  shapeCasts_S16_S1x16 : S16.ShapeCasts S1x16
  broadcasts_S1x16_S256x16 : S1x16.Broadcasts S256x16
  broadcasts_S1x16_S2048x16 : S1x16.Broadcasts S2048x16
  transposes_S2048x16_p1_0_S16x2048 : S2048x16.Transposes [1, 0] S16x2048
  natLt_1_32 : 1 < 32
  reduces_S256x2048_S256 : S256x2048.Reduces [1] S256
  shapeCasts_S256_S256x1 : S256.ShapeCasts S256x1
  broadcasts_S256x1_S256x2048 : S256x1.Broadcasts S256x2048
  inb_S1x256x64_S1x256x64_0_0_0 : ∀ a, (![0, 0, 0] : Fin 3 → Nat) a + S1x256x64.size a ≤ S1x256x64.size a
  shapeCasts_S256x64_S1x256x64 : S256x64.ShapeCasts S1x256x64
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  dot_S256x64_S64x16_S256x16_1_0_0_1_n_n_wf : DotDims.WF S256x64 S64x16 S256x16 [1] [0] [0] [1] [] []
  dot_S2048x64_S64x16_S2048x16_1_0_0_1_n_n_wf : DotDims.WF S2048x64 S64x16 S2048x16 [1] [0] [0] [1] [] []
  dot_S256x16_S16x2048_S256x2048_1_0_0_1_n_n_wf : DotDims.WF S256x16 S16x2048 S256x2048 [1] [0] [0] [1] [] []
  dot_S256x2048_S2048x64_S256x64_1_0_0_1_n_n_wf : DotDims.WF S256x2048 S2048x64 S256x64 [1] [0] [0] [1] [] []
  hrank0 : 0 < grid0.rank
  k0_mult1_dvd : ∀ i : grid0.Coords, 256 ∣ (k0_mult1 i).toNat
  k0_off1_inb : ∀ i : grid0.Coords, ∀ a, (k0_off1 i) a + S1x256x64.size a ≤ S1x2048x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S16x2048x64.size a
  hwx0_0 : ∀ i : grid0.Coords, EltTy.bits .f32 = 32 ∨ (Rect.block (s := S16x2048x64) S1x2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16.size a ≤ S16.size a
  hwx0_2 : ∀ i : grid0.Coords, EltTy.bits .f32 = 32 ∨ (Rect.block (s := S16) S16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x64.size a ≤ S16x64.size a
  hwx0_3 : ∀ i : grid0.Coords, EltTy.bits .f32 = 32 ∨ (Rect.block (s := S16x64) S16x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16.size a ≤ S16.size a
  hwx0_4 : ∀ i : grid0.Coords, EltTy.bits .f32 = 32 ∨ (Rect.block (s := S16) S16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x64.size a ≤ S16x2048x64.size a
  hwx0_5 : ∀ i : grid0.Coords, EltTy.bits .f32 = 32 ∨ (Rect.block (s := S16x2048x64) S1x256x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x2048.size a ≤ S16x2048x2048.size a
  hwx0_6 : ∀ i : grid0.Coords, EltTy.bits .f32 = 32 ∨ (Rect.block (s := S16x2048x2048) S1x256x2048.size (cc0_transform_6 i) (hinb0_6 i)).WholeWords (EltTy.packing .f32)

variable [Facts₀]

def dot_S256x64_S64x16_S256x16_1_0_0_1_n_n : DotDims S256x64 S64x16 S256x16 where
  lhsContracting := [1]
  rhsContracting := [0]
  lhsNonContracting := [0]
  rhsNonContracting := [1]
  lhsBatch := []
  rhsBatch := []
  wf := dot_S256x64_S64x16_S256x16_1_0_0_1_n_n_wf
def dot_S2048x64_S64x16_S2048x16_1_0_0_1_n_n : DotDims S2048x64 S64x16 S2048x16 where
  lhsContracting := [1]
  rhsContracting := [0]
  lhsNonContracting := [0]
  rhsNonContracting := [1]
  lhsBatch := []
  rhsBatch := []
  wf := dot_S2048x64_S64x16_S2048x16_1_0_0_1_n_n_wf
def dot_S256x16_S16x2048_S256x2048_1_0_0_1_n_n : DotDims S256x16 S16x2048 S256x2048 where
  lhsContracting := [1]
  rhsContracting := [0]
  lhsNonContracting := [0]
  rhsNonContracting := [1]
  lhsBatch := []
  rhsBatch := []
  wf := dot_S256x16_S16x2048_S256x2048_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v2) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S1x256x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S1x256x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2048x2x512 : Shape := ⟨3, ![2048, 2, 512]⟩
abbrev S16x64 : Shape := ⟨2, ![16, 64]⟩
abbrev S16 : Shape := ⟨1, ![16]⟩
abbrev S2x2048x512 : Shape := ⟨3, ![2, 2048, 512]⟩
abbrev S2048x16x64 : Shape := ⟨3, ![2048, 16, 64]⟩
abbrev S16x2048x64 : Shape := ⟨3, ![16, 2048, 64]⟩
abbrev S16x2048x16 : Shape := ⟨3, ![16, 2048, 16]⟩
abbrev S1x1x16 : Shape := ⟨3, ![1, 1, 16]⟩
abbrev S_ : Shape := ⟨0, ![]⟩
abbrev S16x2048x2048 : Shape := ⟨3, ![16, 2048, 2048]⟩
abbrev S16x2048 : Shape := ⟨2, ![16, 2048]⟩
abbrev S16x2048x1 : Shape := ⟨3, ![16, 2048, 1]⟩

abbrev nBuf : Space → Nat
  | .hbm => 50
  | .vmem => 0
  | .smem => 0
  | _ => 0

abbrev bufTy : (tb : Table) → Fin (tcTables nBuf tb) → BufTy
  | .hbm, ⟨0, _⟩ => ⟨S2048x2x512, .f32⟩
  | .hbm, ⟨1, _⟩ => ⟨S16x64, .f32⟩
  | .hbm, ⟨2, _⟩ => ⟨S16, .f32⟩
  | .hbm, ⟨3, _⟩ => ⟨S16x64, .f32⟩
  | .hbm, ⟨4, _⟩ => ⟨S16, .f32⟩
  | .hbm, ⟨5, _⟩ => ⟨S2x2048x512, .f32⟩
  | .hbm, ⟨6, _⟩ => ⟨S2048x16x64, .f32⟩
  | .hbm, ⟨7, _⟩ => ⟨S16x2048x64, .f32⟩
  | .hbm, ⟨8, _⟩ => ⟨S16x2048x16, .f32⟩
  | .hbm, ⟨9, _⟩ => ⟨S1x1x16, .f32⟩
  | .hbm, ⟨10, _⟩ => ⟨S16x2048x16, .f32⟩
  | .hbm, ⟨11, _⟩ => ⟨S16x2048x16, .f32⟩
  | .hbm, ⟨12, _⟩ => ⟨S_, .f32⟩
  | .hbm, ⟨13, _⟩ => ⟨S16x2048x16, .f32⟩
  | .hbm, ⟨14, _⟩ => ⟨S16x2048x16, .f32⟩
  | .hbm, ⟨15, _⟩ => ⟨S16x2048x16, .f32⟩
  | .hbm, ⟨16, _⟩ => ⟨S1x1x16, .f32⟩
  | .hbm, ⟨17, _⟩ => ⟨S16x2048x16, .f32⟩
  | .hbm, ⟨18, _⟩ => ⟨S16x2048x16, .f32⟩
  | .hbm, ⟨19, _⟩ => ⟨S_, .f32⟩
  | .hbm, ⟨20, _⟩ => ⟨S16x2048x16, .f32⟩
  | .hbm, ⟨21, _⟩ => ⟨S16x2048x16, .f32⟩
  | .hbm, ⟨22, _⟩ => ⟨S16x2048x2048, .f32⟩
  | .hbm, ⟨23, _⟩ => ⟨S_, .f32⟩
  | .hbm, ⟨24, _⟩ => ⟨S16x2048x2048, .f32⟩
  | .hbm, ⟨25, _⟩ => ⟨S16x2048x2048, .i1⟩
  | .hbm, ⟨26, _⟩ => ⟨S_, .f32⟩
  | .hbm, ⟨27, _⟩ => ⟨S_, .f32⟩
  | .hbm, ⟨28, _⟩ => ⟨S16x2048x2048, .f32⟩
  | .hbm, ⟨29, _⟩ => ⟨S16x2048x2048, .f32⟩
  | .hbm, ⟨30, _⟩ => ⟨S_, .f32⟩
  | .hbm, ⟨31, _⟩ => ⟨S16x2048x2048, .f32⟩
  | .hbm, ⟨32, _⟩ => ⟨S16x2048x2048, .i1⟩
  | .hbm, ⟨33, _⟩ => ⟨S16x2048x2048, .f32⟩
  | .hbm, ⟨34, _⟩ => ⟨S_, .f32⟩
  | .hbm, ⟨35, _⟩ => ⟨S16x2048, .f32⟩
  | .hbm, ⟨36, _⟩ => ⟨S_, .f32⟩
  | .hbm, ⟨37, _⟩ => ⟨S16x2048, .f32⟩
  | .hbm, ⟨38, _⟩ => ⟨S16x2048, .f32⟩
  | .hbm, ⟨39, _⟩ => ⟨S16x2048x1, .f32⟩
  | .hbm, ⟨40, _⟩ => ⟨S16x2048x2048, .f32⟩
  | .hbm, ⟨41, _⟩ => ⟨S16x2048x2048, .f32⟩
  | .hbm, ⟨42, _⟩ => ⟨S16x2048x2048, .f32⟩
  | .hbm, ⟨43, _⟩ => ⟨S_, .f32⟩
  | .hbm, ⟨44, _⟩ => ⟨S16x2048, .f32⟩
  | .hbm, ⟨45, _⟩ => ⟨S16x2048x1, .f32⟩
  | .hbm, ⟨46, _⟩ => ⟨S16x2048x2048, .f32⟩
  | .hbm, ⟨47, _⟩ => ⟨S16x2048x2048, .f32⟩
  | .hbm, ⟨48, _⟩ => ⟨S16x2048x2048, .f32⟩
  | .hbm, ⟨49, _⟩ => ⟨S16x2048x64, .f32⟩
  | _, _ => ⟨S2048x2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_cst : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call1_cst : Ref sig .tc := ⟨.hbm, 19, rfl⟩
abbrev main_call1_v0 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_call2_v0 : Ref sig .tc := ⟨.hbm, 27, rfl⟩
abbrev main_call2_v1 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]

class Facts₀ : Prop where
  transposes_S2048x2x512_S2x2048x512_1_0_2 : S2048x2x512.Transposes [1, 0, 2] S2x2048x512
  shapeCasts_S2x2048x512_S2048x16x64 : S2x2048x512.ShapeCasts S2048x16x64
  transposes_S2048x16x64_S16x2048x64_1_0_2 : S2048x16x64.Transposes [1, 0, 2] S16x2048x64
  bcast_S16_S1x1x16_2 : S16.BroadcastsInDim S1x1x16 (![2] : Fin 1 → Fin S1x1x16.rank)
  bcast_S1x1x16_S16x2048x16_0_1_2 : S1x1x16.BroadcastsInDim S16x2048x16 (![0, 1, 2] : Fin 3 → Fin S16x2048x16.rank)
  bcast_S_S16x2048x16 : S_.BroadcastsInDim S16x2048x16 (![] : Fin 0 → Fin S16x2048x16.rank)
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x64_S16x64_S16x2048x16_2_1_01_0_n_n_wf : DotDims.WF S16x2048x64 S16x64 S16x2048x16 [2] [1] [0, 1] [0] [] []
  dot_S16x2048x16_S16x2048x16_S16x2048x2048_2_2_1_1_0_0_wf : DotDims.WF S16x2048x16 S16x2048x16 S16x2048x2048 [2] [2] [1] [1] [0] [0]
  dot_S16x2048x2048_S16x2048x64_S16x2048x64_2_1_1_2_0_0_wf : DotDims.WF S16x2048x2048 S16x2048x64 S16x2048x64 [2] [1] [1] [2] [0] [0]

variable [Facts₀]

def dot_S16x2048x64_S16x64_S16x2048x16_2_1_01_0_n_n : DotDims S16x2048x64 S16x64 S16x2048x16 where
  lhsContracting := [2]
  rhsContracting := [1]
  lhsNonContracting := [0, 1]
  rhsNonContracting := [0]
  lhsBatch := []
  rhsBatch := []
  wf := dot_S16x2048x64_S16x64_S16x2048x16_2_1_01_0_n_n_wf
def dot_S16x2048x16_S16x2048x16_S16x2048x2048_2_2_1_1_0_0 : DotDims S16x2048x16 S16x2048x16 S16x2048x2048 where
  lhsContracting := [2]
  rhsContracting := [2]
  lhsNonContracting := [1]
  rhsNonContracting := [1]
  lhsBatch := [0]
  rhsBatch := [0]
  wf := dot_S16x2048x16_S16x2048x16_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.Spec.lean ====
/-
  The function both programs compute, written once on the extended reals.

  One batch element holds 2048 rows of 64 numbers. A row x gives two feature vectors of 16 numbers,
  relu (x · w₁ᵀ + β₁) and relu (x · w₂ᵀ + β₂). The similarity of a query row and a key row is the inner product of the
  query's first features with the key's second features; a similarity below the threshold is replaced by zero. Along
  each query row the kept similarities are turned into weights: exp (a − max a) divided by the sum of those exponentials,
  then multiplied by one where the thresholded similarity is not zero and by zero where it is. The result row is the
  weighted sum of the batch's rows; the thresholded similarities are the second result.

  Everything is stated for ONE query row `Q` against the rows `Kf` of its batch element, so that the same definitions
  read a block of 256 query rows and the whole array.
-/
import Idealize.ShloMosaic.PureOps.Ideal
import Idealize.ShloMosaic.PureOps.Ideal.Laws
import Idealize.ShloMosaic.Lib.ValueIdx

noncomputable section

namespace Cert.MaskedAttention

open Idealize.ShloMosaic Idealize.ShloMosaic.ValueIdx
open scoped BigOperators

/-- The batch of rows [16, 2048, 64], a weight matrix [16, 64], a bias [16], and the two results. -/
abbrev SRows : Shape := ⟨3, ![16, 2048, 64]⟩
abbrev SWeight : Shape := ⟨2, ![16, 64]⟩
abbrev SBias : Shape := ⟨1, ![16]⟩
abbrev SSim : Shape := ⟨3, ![16, 2048, 2048]⟩

variable (w₁ : SWeight.Idx → EReal) (β₁ : SBias.Idx → EReal) (w₂ : SWeight.Idx → EReal) (β₂ : SBias.Idx → EReal)

/-- Feature p of a row: relu (x · w(p, ·) + β p). -/
def feature (w : SWeight.Idx → EReal) (β : SBias.Idx → EReal) (x : Fin 64 → EReal) (p : Fin 16) : EReal :=
  max ((∑ d : Fin 64, x d * w (ix2 p d)) + β (ix1 p)) (Ideal.ofBits .f32 0x00000000#32)

/-- The similarity of query row Q with key row t. -/
def similarity (Q : Fin 64 → EReal) (Kf : Fin 2048 → Fin 64 → EReal) (t : Fin 2048) : EReal :=
  ∑ p : Fin 16, feature w₁ β₁ Q p * feature w₂ β₂ (Kf t) p

/-- The similarity with everything below the threshold replaced by zero. -/
def kept (Q : Fin 64 → EReal) (Kf : Fin 2048 → Fin 64 → EReal) (t : Fin 2048) : EReal :=
  Scalar.select (Ideal.cmp .olt (similarity w₁ β₁ w₂ β₂ Q Kf t) (Ideal.ofBits .f32 0x3E4CCCCD#32))
    (Ideal.ofBits .f32 0x00000000#32) (similarity w₁ β₁ w₂ β₂ Q Kf t)

/-- One where the kept similarity is not zero, zero where it is. -/
def indicator (Q : Fin 64 → EReal) (Kf : Fin 2048 → Fin 64 → EReal) (t : Fin 2048) : EReal :=
  (((Ideal.cmp .une (kept w₁ β₁ w₂ β₂ Q Kf t) (Ideal.ofBits .f32 0x00000000#32)).toNat : ℝ) : EReal)

/-- The largest kept similarity of the query row. -/
def rowMax (Q : Fin 64 → EReal) (Kf : Fin 2048 → Fin 64 → EReal) : EReal :=
  (Finset.univ : Finset (Fin 2048)).fold max (Ideal.ofBits .f32 0xFF800000#32) (fun t => kept w₁ β₁ w₂ β₂ Q Kf t)

/-- exp (a − max a). -/
def expShifted (Q : Fin 64 → EReal) (Kf : Fin 2048 → Fin 64 → EReal) (t : Fin 2048) : EReal :=
  Ideal.exp (kept w₁ β₁ w₂ β₂ Q Kf t - rowMax w₁ β₁ w₂ β₂ Q Kf)

/-- The weight of key row t: the normalized exponential, switched off where the kept similarity is zero. -/
def weight (Q : Fin 64 → EReal) (Kf : Fin 2048 → Fin 64 → EReal) (t : Fin 2048) : EReal :=
  Ideal.div (expShifted w₁ β₁ w₂ β₂ Q Kf t) (∑ u : Fin 2048, expShifted w₁ β₁ w₂ β₂ Q Kf u) * indicator w₁ β₁ w₂ β₂ Q Kf t

/-- Entry d of the result row: the weighted sum of the batch's rows. -/
def mixed (Q : Fin 64 → EReal) (Kf : Fin 2048 → Fin 64 → EReal) (d : Fin 64) : EReal :=
  ∑ t : Fin 2048, weight w₁ β₁ w₂ β₂ Q Kf t * Kf t d

variable (X : SRows.Idx → EReal)

/-- Row s of batch element b. -/
def rowOf (b : Fin 16) (s : Fin 2048) : Fin 64 → EReal := fun d => X (ix3 b s d)

/-- The first result, [16, 2048, 64]: every query row mixed against its own batch element. -/
def mixedAll : SRows.Idx → EReal := fun i =>
  mixed w₁ β₁ w₂ β₂ (rowOf X (i 0) (i 1)) (rowOf X (i 0)) (i 2)

/-- The second result, [16, 2048, 2048]: the kept similarities. -/
def keptAll : SSim.Idx → EReal := fun i =>
  kept w₁ β₁ w₂ β₂ (rowOf X (i 0) (i 1)) (rowOf X (i 0)) (i 2)

end Cert.MaskedAttention

end
-- ==== Proof.LibMatmulRows.lean ====
/-
  GENERAL LEMMAS: the product of an [R, K] matrix with a [K, N] matrix — (A * B)(p, q) = sum over k of A(p, k) * B(k, q) —
  read at an index on extended reals, in the two spellings a kernel and a host program give it. Nothing here mentions a
  program; the extents R, K (the contracted axis: the lanes of A, the rows of B) and N are arbitrary.

  * idx2_ext: two rank-2 indices with the same coordinates are one index.
  * contraction_rows: a contraction of axis 1 of an [R, K] array with axis 0 of a [K, N] array (no batch axes), read at
    (p, q), is the sum over k : Fin K of l (p, k) * r (k, q); the dimension record enters only through four coordinate facts
    about its operand indices and the rank and extent of its contraction shape.
  * matmul_rows: the kernel's spelling — the matrix unit's product into a zero accumulator — at (p, q).
  * hostdot_rows: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibMatmulRows

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the rows of a [K, N] array, read at (p, q): the sum over k of
    l(p, k) * r(k, q). The dimension record enters through four coordinate facts and the extent of its one contracted
    axis. -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : (⟨2, ![R, K]⟩ : Shape).Idx → EReal) (r : (⟨2, ![K, N]⟩ : Shape).Idx → EReal) (p : Fin R) (q : Fin N) :
    ∑ s : d.contr.Idx, l (d.lhsIdx (ix2 p q) s) * r (d.rhsIdx (ix2 p q) s) = ∑ k : Fin K, l (ix2 p k) * r (ix2 k q) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 k q :=
    idx2_ext _ _ ((hr0 _ _).trans hk) (hr1 _ _)
  rw [el, er]

/-- The matrix unit's product into a zero accumulator, read at (p, q). -/
theorem matmul_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    {φ₁ φ₂ : FTy} (l : FVec Ideal ⟨2, ![R, K]⟩ φ₁) (r : FVec Ideal ⟨2, ![K, N]⟩ φ₂) (p : Fin R) (q : Fin N) :
    matmul d none l r (constant (F := Ideal) ⟨2, ![R, N]⟩ .f32 0x00000000#32) (ix2 p q)
      = ∑ k : Fin K, l (ix2 p k) * r (ix2 k q) :=
  (Ideal.matmul_constant_zero_apply d none l r (ix2 p q)).trans
    (contraction_rows d hrank hsize hl0 hl1 hr0 hr1 l r p q)

/-- The host's dot_general, read at (p, q). -/
theorem hostdot_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : FVec Ideal ⟨2, ![R, K]⟩ .f32) (r : FVec Ideal ⟨2, ![K, N]⟩ .f32) (p : Fin R) (q : Fin N) :
    Host.dotGeneral d none l r (ix2 p q) = ∑ k : Fin K, l (ix2 p k) * r (ix2 k q) :=
  (Ideal.dotGeneral_apply d none .single l r (ix2 p q)).trans
    (contraction_rows d hrank hsize hl0 hl1 hr0 hr1 l r p q)

end Cert.LibMatmulRows

end
-- ==== Proof.LibLayout.lean ====
/-
  Layout operations read at an index given by coordinates: the forms a row-wise normalization meets and the
  library does not yet have.

  * a column of row statistics: a vector `[a]` cast to `[a, 1]` (`keepdims`), and that column broadcast back over
    the `b` lanes of every row, `[a, 1] → [a, b]`;
  * one matrix broadcast over a new leading axis, `[1, b, c] → [a, b, c]`;
  * the rows of a `[4096, 768]` block regrouped as `[4, 1024, 768]` and back: row `r` is group `r / 1024`,
    member `r % 1024`, because both arrays list their entries in the same row-major order;
  * a sum over the lane axis of a matrix, read at row `r`: the sum over `k` of the entries `(r, k)`.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One `[1, b, c]` matrix broadcast over a leading axis of `a` copies reads, at `(p, q, r)`, the matrix at `(q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- The 4096 rows regrouped as 4 groups of 1024: entry `(g, n, k)` of the regrouped array is row `g · 1024 + n`. -/
theorem shapeCast_split_apply (x : (⟨2, ![4096, 768]⟩ : Shape).Idx → α)
    (h : (⟨2, ![4096, 768]⟩ : Shape).ShapeCasts ⟨3, ![4, 1024, 768]⟩) (g : Fin 4) (n : Fin 1024) (k : Fin 768) :
    shapeCast ⟨3, ![4, 1024, 768]⟩ x h (ix3 g n k) = x (ix2 (⟨g.val * 1024 + n.val, by omega⟩ : Fin 4096) k) :=
  shapeCast_apply x h _ _ (by
    rw [Shape.rowMajor_val_two, Shape.rowMajor_val_three]
    rfl)

/-- The 4 groups of 1024 rows listed again as 4096 rows: row `r` is member `r % 1024` of group `r / 1024`. -/
theorem shapeCast_merge_apply (y : (⟨3, ![4, 1024, 768]⟩ : Shape).Idx → α)
    (h : (⟨3, ![4, 1024, 768]⟩ : Shape).ShapeCasts ⟨2, ![4096, 768]⟩) (r : Fin 4096) (k : Fin 768) :
    shapeCast ⟨2, ![4096, 768]⟩ y h (ix2 r k)
      = y (ix3 (⟨r.val / 1024, by omega⟩ : Fin 4) (⟨r.val % 1024, by omega⟩ : Fin 1024) k) :=
  shapeCast_apply y h _ _ (by
    rw [Shape.rowMajor_val_two, Shape.rowMajor_val_three]
    show (r.val / 1024 * 1024 + r.val % 1024) * 768 + k.val = r.val * 768 + k.val
    omega)

/-- Over row `r` of a matrix, the index with lane `k` put back on the summed axis is `(r, k)`. -/
theorem lift_row {a b : ℕ} (h : Shape.Reduces ⟨2, ![a, b]⟩ [1] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lane axis of a matrix, read at row `r` at the exact instance: the sum of the row's entries. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (lift_row h r k))

end Cert.LibLayout

end
-- ==== Proof.LibLaneMax.lean ====
/-
  GENERAL LEMMA: a maximum over the lane axis of a matrix, read at a row on extended reals.

  * laneMax_apply: a float maximum-reduction over axis 1 of an [a, b] matrix, started from an accumulator word, read at
    row r, is the fold of max from the accumulator's value over the b entries (r, k) of that row. Because max on the
    extended reals commutes and associates, the order in which the entries are visited does not matter, so the fold is
    over the finite set of lane positions.
  Nothing here mentions a program; the extents a and b are arbitrary.
-/
import proofs.«168533_j28303834480931_1_alg».proof.Proof.LibLayout

noncomputable section

namespace Cert.LibLaneMax

open Idealize.ShloMosaic Idealize.ShloMosaic.ValueIdx

/-- A float maximum over the lane axis of a matrix, read at row `r` at the exact instance: the fold of `max`, from
    the accumulator's value, over the row's entries. -/
theorem laneMax_apply {a b : ℕ} (v : FVec Ideal ⟨2, ![a, b]⟩ .f32) (acc : BitVec 32)
    (h : Shape.Reduces ⟨2, ![a, b]⟩ [1] ⟨1, ![a]⟩) (hφ : FKind.Formats .f32)
    (hacc : acc = FKind.maximumf.neutral .f32 hφ) (r : Fin a) :
    multiReduction .maximumf [1] ⟨1, ![a]⟩ v acc h hφ hacc (ix1 r)
      = (Finset.univ : Finset (Fin b)).fold max (Ideal.ofBits .f32 acc) (fun k => v (ix2 r k)) :=
  (Ideal.multiReduction_maximumf_single v acc h hφ hacc (ix1 r)).trans
    (congrArg (fun f : Fin b → EReal => (Finset.univ : Finset (Fin b)).fold max (Ideal.ofBits .f32 acc) f)
      (funext fun k => congrArg v (Cert.LibLayout.lift_row h r k)))

end Cert.LibLaneMax

end
-- ==== Proof.LibOneBit.lean ====
/-
  GENERAL LEMMAS: a one-bit comparison result read as a number, and two f32 words on the extended reals. Nothing here
  mentions a program.

  * widened_signed: a one-bit word widened with zeros to 32 bits and read as a signed integer is the bit read as a natural
    number (0 or 1) — a kernel's mask (extend, then convert signed) against a host's (convert the bit unsigned).
  * cmp_one_eq_une: on the extended reals nothing is unordered, so "ordered and not equal" and "unordered or not equal"
    are the same comparison.
  * max_negInf_word: the f32 word of minus infinity is the least extended real, so a maximum met with it is unchanged.
  * zero_word: the f32 word of zero is the extended real zero.
-/
import Idealize.ShloMosaic.PureOps.Ideal
import Idealize.ShloMosaic.PureOps.Ideal.Laws

noncomputable section

namespace Cert.LibOneBit

open Idealize.ShloMosaic

/-- A one-bit word widened to 32 bits and read as a signed integer is the bit. -/
theorem widened_signed (b : BitVec 1) : (((b.setWidth 32).toInt : ℝ) : EReal) = ((b.toNat : ℝ) : EReal) := by
  have h : ∀ b : BitVec 1, (b.setWidth 32).toInt = (b.toNat : ℤ) := by decide
  rw [h b, Int.cast_natCast]

/-- Ordered-not-equal and unordered-or-not-equal are one comparison of extended reals. -/
theorem cmp_one_eq_une (x y : EReal) : Ideal.cmp .one x y = Ideal.cmp .une x y := rfl

/-- Minus infinity is the least extended real, so meeting it by max changes nothing. -/
theorem max_negInf_word (y : EReal) : max (Ideal.ofBits .f32 0xFF800000#32) y = y := by
  simp [Ideal.ofBits, Ideal.ieee]

/-- The f32 word of zero is the extended real zero. -/
theorem zero_word : Ideal.ofBits .f32 0x00000000#32 = (0 : EReal) := Ideal.ofBits_zero_f32

end Cert.LibOneBit

end
-- ==== Proof.KernelBody.lean ====
/-
  The kernel body's arithmetic at an index, on the extended reals.

  At one grid point the body holds the 2048 rows of one batch element (`x0`), the 256 query rows of the point (`x5`, a
  slab of the same rows) and the two weight matrices and biases. Every payload of the body is read here at local
  coordinates: query row r of the block, key row t, feature p, entry d.
  * the two feature matrices: relu (rows · wᵀ + β), a product into a zero accumulator plus a broadcast bias row;
  * the similarities: features of the query rows times the transposed features of all rows, then the threshold;
  * the indicator of a non-zero kept similarity: a one-bit comparison widened to 32 bits and read as a signed integer is
    the bit itself;
  * the row maximum: a lane maximum from minus infinity, kept as a column;
  * the mixed rows: exp (a − max) over its lane sum, times the indicator, times the rows.
-/
import proofs.«168533_j28303834480931_1_alg».proof.Proof.Gen.KernelIdeal.Skeleton
import proofs.«168533_j28303834480931_1_alg».proof.Proof.Spec
import proofs.«168533_j28303834480931_1_alg».proof.Proof.LibMatmulRows
import proofs.«168533_j28303834480931_1_alg».proof.Proof.LibLayout
import proofs.«168533_j28303834480931_1_alg».proof.Proof.LibLaneMax
import proofs.«168533_j28303834480931_1_alg».proof.Proof.LibOneBit
import Idealize.ShloMosaic.Lib.ValueLayout
import Idealize.ShloMosaic.Lib.Pipeline.Value

noncomputable section

namespace Cert.KernelIdeal.Body

open Cert.KernelIdeal Cert.KernelIdeal.Gen Cert.MaskedAttention
open Idealize.ShloMosaic Idealize.ShloMosaic.ValueIdx
open scoped BigOperators

/-! ## The body's four matrix products, read at (p, q) -/

theorem queryFeatures_product (l : FVec Ideal S256x64 .f32) (r : FVec Ideal S64x16 .f32) (p : Fin 256) (q : Fin 16) :
    matmul dot_S256x64_S64x16_S256x16_1_0_0_1_n_n none l r (constant (F := Ideal) S256x16 .f32 0x00000000#32) (ix2 p q)
      = ∑ k : Fin 64, l (ix2 p k) * r (ix2 k q) :=
  Cert.LibMatmulRows.matmul_rows dot_S256x64_S64x16_S256x16_1_0_0_1_n_n rfl rfl
    (fun i s => by
      unfold DotDims.lhsIdx
      rw [dif_neg (show ¬(0 : Fin S256x64.rank) ∈ dot_S256x64_S64x16_S256x16_1_0_0_1_n_n.lhsBatch by decide),
        dif_pos (show (0 : Fin S256x64.rank) ∈ dot_S256x64_S64x16_S256x16_1_0_0_1_n_n.lhsNonContracting by decide)]
      rfl)
    (fun i s => dot_S256x64_S64x16_S256x16_1_0_0_1_n_n.lhsIdx_val_of_single rfl i s)
    (fun i s => dot_S256x64_S64x16_S256x16_1_0_0_1_n_n.rhsIdx_val_of_single rfl i s)
    (fun i s => by
      unfold DotDims.rhsIdx
      rw [dif_neg (show ¬(1 : Fin S64x16.rank) ∈ dot_S256x64_S64x16_S256x16_1_0_0_1_n_n.rhsBatch by decide),
        dif_pos (show (1 : Fin S64x16.rank) ∈ dot_S256x64_S64x16_S256x16_1_0_0_1_n_n.rhsNonContracting by decide)]
      rfl)
    l r p q

theorem keyFeatures_product (l : FVec Ideal S2048x64 .f32) (r : FVec Ideal S64x16 .f32) (p : Fin 2048) (q : Fin 16) :
    matmul dot_S2048x64_S64x16_S2048x16_1_0_0_1_n_n none l r (constant (F := Ideal) S2048x16 .f32 0x00000000#32) (ix2 p q)
      = ∑ k : Fin 64, l (ix2 p k) * r (ix2 k q) :=
  Cert.LibMatmulRows.matmul_rows dot_S2048x64_S64x16_S2048x16_1_0_0_1_n_n rfl rfl
    (fun i s => by
      unfold DotDims.lhsIdx
      rw [dif_neg (show ¬(0 : Fin S2048x64.rank) ∈ dot_S2048x64_S64x16_S2048x16_1_0_0_1_n_n.lhsBatch by decide),
        dif_pos (show (0 : Fin S2048x64.rank) ∈ dot_S2048x64_S64x16_S2048x16_1_0_0_1_n_n.lhsNonContracting by decide)]
      rfl)
    (fun i s => dot_S2048x64_S64x16_S2048x16_1_0_0_1_n_n.lhsIdx_val_of_single rfl i s)
    (fun i s => dot_S2048x64_S64x16_S2048x16_1_0_0_1_n_n.rhsIdx_val_of_single rfl i s)
    (fun i s => by
      unfold DotDims.rhsIdx
      rw [dif_neg (show ¬(1 : Fin S64x16.rank) ∈ dot_S2048x64_S64x16_S2048x16_1_0_0_1_n_n.rhsBatch by decide),
        dif_pos (show (1 : Fin S64x16.rank) ∈ dot_S2048x64_S64x16_S2048x16_1_0_0_1_n_n.rhsNonContracting by decide)]
      rfl)
    l r p q

theorem similarity_product (l : FVec Ideal S256x16 .f32) (r : FVec Ideal S16x2048 .f32) (p : Fin 256) (q : Fin 2048) :
    matmul dot_S256x16_S16x2048_S256x2048_1_0_0_1_n_n none l r (constant (F := Ideal) S256x2048 .f32 0x00000000#32) (ix2 p q)
      = ∑ k : Fin 16, l (ix2 p k) * r (ix2 k q) :=
  Cert.LibMatmulRows.matmul_rows dot_S256x16_S16x2048_S256x2048_1_0_0_1_n_n rfl rfl
    (fun i s => by
      unfold DotDims.lhsIdx
      rw [dif_neg (show ¬(0 : Fin S256x16.rank) ∈ dot_S256x16_S16x2048_S256x2048_1_0_0_1_n_n.lhsBatch by decide),
        dif_pos (show (0 : Fin S256x16.rank) ∈ dot_S256x16_S16x2048_S256x2048_1_0_0_1_n_n.lhsNonContracting by decide)]
      rfl)
    (fun i s => dot_S256x16_S16x2048_S256x2048_1_0_0_1_n_n.lhsIdx_val_of_single rfl i s)
    (fun i s => dot_S256x16_S16x2048_S256x2048_1_0_0_1_n_n.rhsIdx_val_of_single rfl i s)
    (fun i s => by
      unfold DotDims.rhsIdx
      rw [dif_neg (show ¬(1 : Fin S16x2048.rank) ∈ dot_S256x16_S16x2048_S256x2048_1_0_0_1_n_n.rhsBatch by decide),
        dif_pos (show (1 : Fin S16x2048.rank) ∈ dot_S256x16_S16x2048_S256x2048_1_0_0_1_n_n.rhsNonContracting by decide)]
      rfl)
    l r p q

theorem mixing_product (l : FVec Ideal S256x2048 .f32) (r : FVec Ideal S2048x64 .f32) (p : Fin 256) (q : Fin 64) :
    matmul dot_S256x2048_S2048x64_S256x64_1_0_0_1_n_n none l r (constant (F := Ideal) S256x64 .f32 0x00000000#32) (ix2 p q)
      = ∑ k : Fin 2048, l (ix2 p k) * r (ix2 k q) :=
  Cert.LibMatmulRows.matmul_rows dot_S256x2048_S2048x64_S256x64_1_0_0_1_n_n rfl rfl
    (fun i s => by
      unfold DotDims.lhsIdx
      rw [dif_neg (show ¬(0 : Fin S256x2048.rank) ∈ dot_S256x2048_S2048x64_S256x64_1_0_0_1_n_n.lhsBatch by decide),
        dif_pos (show (0 : Fin S256x2048.rank) ∈ dot_S256x2048_S2048x64_S256x64_1_0_0_1_n_n.lhsNonContracting by decide)]
      rfl)
    (fun i s => dot_S256x2048_S2048x64_S256x64_1_0_0_1_n_n.lhsIdx_val_of_single rfl i s)
    (fun i s => dot_S256x2048_S2048x64_S256x64_1_0_0_1_n_n.rhsIdx_val_of_single rfl i s)
    (fun i s => by
      unfold DotDims.rhsIdx
      rw [dif_neg (show ¬(1 : Fin S2048x64.rank) ∈ dot_S256x2048_S2048x64_S256x64_1_0_0_1_n_n.rhsBatch by decide),
        dif_pos (show (1 : Fin S2048x64.rank) ∈ dot_S256x2048_S2048x64_S256x64_1_0_0_1_n_n.rhsNonContracting by decide)]
      rfl)
    l r p q

/-! ## The feature matrices -/

/-- The features of the block's query rows: row r, feature p. -/
theorem queryFeatures_apply (A : FVec Ideal S256x64 .f32) (w : FVec Ideal S16x64 .f32) (β : FVec Ideal S16 .f32)
    (r : Fin 256) (p : Fin 16) :
    maximumf (addf (matmul dot_S256x64_S64x16_S256x16_1_0_0_1_n_n none A (transpose S64x16 [1, 0] w transposes_S16x64_p1_0_S64x16)
        (constant (F := Ideal) S256x16 .f32 0x00000000#32))
        (broadcastTo S256x16 (shapeCast S1x16 β shapeCasts_S16_S1x16) broadcasts_S1x16_S256x16))
      (broadcast S256x16 (FloatOps.ofBits (F := Ideal) .f32 0x00000000#32)) (ix2 r p)
      = feature w β (fun d => A (ix2 r d)) p := by
  show max (matmul dot_S256x64_S64x16_S256x16_1_0_0_1_n_n none A _ _ (ix2 r p)
      + broadcastTo S256x16 (shapeCast S1x16 β shapeCasts_S16_S1x16) broadcasts_S1x16_S256x16 (ix2 r p)) _ = _
  rw [queryFeatures_product, broadcastTo_1b_ab_apply, shapeCast_a_1a_apply]
  have hT : ∀ x : Fin 64, transpose S64x16 [1, 0] w transposes_S16x64_p1_0_S64x16 (ix2 x p) = w (ix2 p x) :=
    fun x => transpose_ix2_apply w _ x p
  simp only [hT]
  rfl

/-- The features of all rows of the batch element: row t, feature p. -/
theorem keyFeatures_apply (A : FVec Ideal S2048x64 .f32) (w : FVec Ideal S16x64 .f32) (β : FVec Ideal S16 .f32)
    (t : Fin 2048) (p : Fin 16) :
    maximumf (addf (matmul dot_S2048x64_S64x16_S2048x16_1_0_0_1_n_n none A (transpose S64x16 [1, 0] w transposes_S16x64_p1_0_S64x16)
        (constant (F := Ideal) S2048x16 .f32 0x00000000#32))
        (broadcastTo S2048x16 (shapeCast S1x16 β shapeCasts_S16_S1x16) broadcasts_S1x16_S2048x16))
      (broadcast S2048x16 (FloatOps.ofBits (F := Ideal) .f32 0x00000000#32)) (ix2 t p)
      = feature w β (fun d => A (ix2 t d)) p := by
  show max (matmul dot_S2048x64_S64x16_S2048x16_1_0_0_1_n_n none A _ _ (ix2 t p)
      + broadcastTo S2048x16 (shapeCast S1x16 β shapeCasts_S16_S1x16) broadcasts_S1x16_S2048x16 (ix2 t p)) _ = _
  rw [keyFeatures_product, broadcastTo_1b_ab_apply, shapeCast_a_1a_apply]
  have hT : ∀ x : Fin 64, transpose S64x16 [1, 0] w transposes_S16x64_p1_0_S64x16 (ix2 x p) = w (ix2 p x) :=
    fun x => transpose_ix2_apply w _ x p
  simp only [hT]
  rfl

/-! ## Layout steps of the body, in its own shapes -/

theorem featuresT_apply (v : FVec Ideal S2048x16 .f32) (k : Fin 16) (t : Fin 2048) :
    transpose S16x2048 [1, 0] v transposes_S2048x16_p1_0_S16x2048 (ix2 k t) = v (ix2 t k) :=
  transpose_ix2_apply v _ k t
theorem queryRows_apply (x : Vec Ideal S1x256x64 .f32) (r : Fin 256) (d : Fin 64) :
    shapeCast S256x64 x shapeCasts_S1x256x64_S256x64 (ix2 r d) = x (ix3 (0 : Fin 1) r d) :=
  shapeCast_1ab_ab_apply x _ r d
theorem allRows_apply (x : Vec Ideal S1x2048x64 .f32) (t : Fin 2048) (d : Fin 64) :
    shapeCast S2048x64 x shapeCasts_S1x2048x64_S2048x64 (ix2 t d) = x (ix3 (0 : Fin 1) t d) :=
  shapeCast_1ab_ab_apply x _ t d
theorem column_apply (M : FVec Ideal S256x1 .f32) (r : Fin 256) (t : Fin 2048) :
    broadcastTo S256x2048 M broadcasts_S256x1_S256x2048 (ix2 r t) = M (ix2 r (0 : Fin 1)) :=
  Cert.LibLayout.broadcastTo_a1_ab_apply M _ r t
theorem columnCast_apply (v : FVec Ideal S256 .f32) (r : Fin 256) (u : Fin 1) :
    shapeCast S256x1 v shapeCasts_S256_S256x1 (ix2 r u) = v (ix1 r) :=
  Cert.LibLayout.shapeCast_a_a1_apply v _ r u
theorem laneSum_apply (v : FVec Ideal S256x2048 .f32) (r : Fin 256) :
    multiReduction .add [1] S256 v 0x00000000#32 reduces_S256x2048_S256 (.inl rfl) rfl (ix1 r) = ∑ k : Fin 2048, v (ix2 r k) :=
  Cert.LibLayout.laneSum_apply v _ _ _ r
theorem expSub_apply (K B : FVec Ideal S256x2048 .f32) (i : S256x2048.Idx) : exp (subf K B) i = Ideal.exp (K i - B i) := rfl

/-! ## The payloads -/

variable (x0 : Vec Ideal S1x2048x64 .f32) (x5 : Vec Ideal S1x256x64 .f32) (x1 : Vec Ideal S16x64 .f32) (x2 : Vec Ideal S16 .f32)
  (x3 : Vec Ideal S16x64 .f32) (x4 : Vec Ideal S16 .f32)

/-- Query row r of the block, and all rows of the batch element, as the body's loads hold them. -/
abbrev queryRow (r : Fin 256) : Fin 64 → EReal := fun d => x5 (ix3 (0 : Fin 1) r d)
abbrev keyRows : Fin 2048 → Fin 64 → EReal := fun t d => x0 (ix3 (0 : Fin 1) t d)

/-- The batch element's slab with its unit axis dropped, at (t, d). -/
theorem slab_apply (t : Fin 2048) (d : Fin 64) : k0_pay3 x0 (ix2 t d) = x0 (ix3 (0 : Fin 1) t d) := by
  unfold k0_pay3
  exact allRows_apply x0 t d

/-- The thresholded similarities of the block: query row r against key row t. -/
theorem keptBlock_apply (r : Fin 256) (t : Fin 2048) :
    k0_pay4 x0 x5 x1 x2 x3 x4 (ix2 r t) = kept x1 x2 x3 x4 (queryRow x5 r) (keyRows x0) t := by
  unfold k0_pay4 k0_pay3
  dsimp only
  show Scalar.select (Ideal.cmp .olt (matmul (F := Ideal) dot_S256x16_S16x2048_S256x2048_1_0_0_1_n_n none _ _ _ (ix2 r t)) _) _
    (matmul (F := Ideal) dot_S256x16_S16x2048_S256x2048_1_0_0_1_n_n none _ _ _ (ix2 r t)) = _
  rw [similarity_product]
  refine congrArg₂ (fun a b => Scalar.select (Ideal.cmp .olt a _) _ b) ?_ ?_ <;>
  · refine Finset.sum_congr rfl fun k _ => ?_
    rw [featuresT_apply]
    rw [queryFeatures_apply]
    rw [keyFeatures_apply]
    exact congrArg₂ (fun f g : Fin 64 → EReal => feature x1 x2 f k * feature x3 x4 g k)
      (funext fun d => queryRows_apply x5 r d) (funext fun d => allRows_apply x0 t d)

/-- The indicator of the block: one where the kept similarity of (r, t) is not zero. -/
theorem indicatorBlock_apply (r : Fin 256) (t : Fin 2048) :
    k0_pay5 x0 x5 x1 x2 x3 x4 (ix2 r t) = indicator x1 x2 x3 x4 (queryRow x5 r) (keyRows x0) t := by
  unfold k0_pay5
  show ((((Ideal.cmp .one (k0_pay4 x0 x5 x1 x2 x3 x4 (ix2 r t)) (Ideal.ofBits .f32 0x00000000#32)).setWidth 32).toInt : ℝ) : EReal) = _
  rw [keptBlock_apply, Cert.LibOneBit.widened_signed]
  rfl

/-- The row maxima of the block, kept as a column. -/
theorem rowMaxBlock_apply (r : Fin 256) (u : Fin 1) :
    k0_pay6 x0 x5 x1 x2 x3 x4 (ix2 r u) = rowMax x1 x2 x3 x4 (queryRow x5 r) (keyRows x0) := by
  unfold k0_pay6
  dsimp only
  refine (Cert.LibLayout.shapeCast_a_a1_apply _ _ r u).trans ?_
  refine (Cert.LibLaneMax.laneMax_apply _ _ _ _ _ r).trans ?_
  unfold rowMax
  exact congrArg (fun f : Fin 2048 → EReal => (Finset.univ : Finset (Fin 2048)).fold max (Ideal.ofBits .f32 0xFF800000#32) f)
    (funext fun t => keptBlock_apply x0 x5 x1 x2 x3 x4 r t)

/-- The mixed rows of the block from the kept similarities K, the indicator I and the column of row maxima M. -/
theorem mixedStore_apply (v3 : FVec Ideal S2048x64 .f32) (K I : FVec Ideal S256x2048 .f32) (M : FVec Ideal S256x1 .f32)
    (u : Fin 1) (r : Fin 256) (d : Fin 64) :
    k0_pay1 v3 K I M (ix3 u r d)
      = ∑ t : Fin 2048, Ideal.div (Ideal.exp (K (ix2 r t) - M (ix2 r (0 : Fin 1))))
          (∑ s : Fin 2048, Ideal.exp (K (ix2 r s) - M (ix2 r (0 : Fin 1)))) * I (ix2 r t) * v3 (ix2 t d) := by
  unfold k0_pay1
  dsimp only
  refine (shapeCast_ab_1ab_apply _ _ u r d).trans ?_
  rw [mixing_product]
  refine Finset.sum_congr rfl fun t _ => ?_
  refine congrArg (· * v3 (ix2 t d)) ?_
  show Ideal.div (exp (subf K (broadcastTo S256x2048 M broadcasts_S256x1_S256x2048)) (ix2 r t))
      (broadcastTo S256x2048 (shapeCast S256x1 _ shapeCasts_S256_S256x1) broadcasts_S256x1_S256x2048 (ix2 r t)) * I (ix2 r t) = _
  simp only [column_apply, columnCast_apply, expSub_apply]
  refine congrArg (fun z => Ideal.div (Ideal.exp (K (ix2 r t) - M (ix2 r (0 : Fin 1)))) z * I (ix2 r t)) ?_
  refine (Cert.LibLayout.laneSum_apply _ _ _ _ r).trans ?_
  refine Finset.sum_congr rfl fun s _ => ?_
  simp only [expSub_apply, column_apply]

/-- The first payload: the mixed rows of the block's query rows. -/
theorem mixedBlock_apply (u : Fin 1) (r : Fin 256) (d : Fin 64) :
    k0_pay1 (k0_pay3 x0) (k0_pay4 x0 x5 x1 x2 x3 x4) (k0_pay5 x0 x5 x1 x2 x3 x4) (k0_pay6 x0 x5 x1 x2 x3 x4) (ix3 u r d)
      = mixed x1 x2 x3 x4 (queryRow x5 r) (keyRows x0) d := by
  rw [mixedStore_apply]
  unfold mixed weight expShifted
  simp only [keptBlock_apply, indicatorBlock_apply, rowMaxBlock_apply, slab_apply]

/-- The second payload: the kept similarities of the block. -/
theorem keptStore_apply (u : Fin 1) (r : Fin 256) (t : Fin 2048) :
    k0_pay2 (k0_pay4 x0 x5 x1 x2 x3 x4) (ix3 u r t) = kept x1 x2 x3 x4 (queryRow x5 r) (keyRows x0) t := by
  unfold k0_pay2
  exact (shapeCast_ab_1ab_apply _ _ u r t).trans (keptBlock_apply x0 x5 x1 x2 x3 x4 r t)

end Cert.KernelIdeal.Body

end
-- ==== Proof.KernelPieces.lean ====
/-
  What one grid point leaves in its two output blocks, as the body's payloads.

  The body stores each output block once, whole; what the block then holds is that store's value. The value is a function
  of the body's loads: the whole 2048-row slab of the batch element, the 256 query rows of the point (the rows of the same
  slab starting at 256 times the point's second coordinate), the two weight matrices and the two biases.
-/
import proofs.«168533_j28303834480931_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The 256 query rows of grid point i, read out of the batch element's slab. -/
def queryBlock (i : grid0.Coords) (x0 : Vec F S1x2048x64 .f32) : Vec F S1x256x64 .f32 :=
  View.ld x0 (Rect.unit (s := S1x2048x64) (k0_off1 i) S1x256x64.size (k0_off1_inb i))

/-- The first output block after the body: the mixed rows of the point's query rows. -/
theorem mixedPiece (c : Dev nD) (i : grid0.Coords) (a2 : Memref sig .tc .vmem S1x2048x64 .f32) (h2 : a2.IsWhole) (a3 : Memref sig .tc .vmem S16x64 .f32) (h3 : a3.IsWhole) (a4 : Memref sig .tc .vmem S16 .f32) (h4 : a4.IsWhole) (a5 : Memref sig .tc .vmem S16x64 .f32) (h5 : a5.IsWhole) (a6 : Memref sig .tc .vmem S16 .f32) (h6 : a6.IsWhole) (a7 : Memref sig .tc .vmem S1x256x64 .f32) (h7 : a7.IsWhole) (a8 : Memref sig .tc .vmem S1x256x2048 .f32) (h8 : a8.IsWhole)
    (x0 : Vec F S1x2048x64 .f32) (x1 : Vec F S16x64 .f32) (x2 : Vec F S16 .f32) (x3 : Vec F S16x64 .f32) (x4 : Vec F S16 .f32) :
    out0_A_5 c i a2 h2 a3 h3 a4 h4 a5 h5 a6 h6 a7 h7 a8 h8 x0 x1 x2 x3 x4
      = k0_pay1 (k0_pay3 x0) (k0_pay4 x0 (queryBlock i x0) x1 x2 x3 x4) (k0_pay5 x0 (queryBlock i x0) x1 x2 x3 x4)
          (k0_pay6 x0 (queryBlock i x0) x1 x2 x3 x4) := by
  unfold out0_A_5
  rw [View.read_writes_eq_canon _ _ _ (cover0_A_5 c i a2 h2 a3 h3 a4 h4 a5 h5 a6 h6 a7 h7 a8 h8 x0 x1 x2 x3 x4)]
  unfold kernelRun0_A
  dsimp only
  sl_unfold_words
  rw [View.canon_unit_zero zeros3]
  simp only [View.readAt_eq_ld, h2.read_unread, h3.read_unread, h4.read_unread, h5.read_unread, h6.read_unread,
    View.ld_unit_zero (S := S1x2048x64) zeros3, View.ld_unit_zero (S := S16x64) zeros2, View.ld_unit_zero (S := S16) zeros1]
  rfl

/-- The second output block after the body: the kept similarities of the point's query rows. -/
theorem keptPiece (c : Dev nD) (i : grid0.Coords) (a2 : Memref sig .tc .vmem S1x2048x64 .f32) (h2 : a2.IsWhole) (a3 : Memref sig .tc .vmem S16x64 .f32) (h3 : a3.IsWhole) (a4 : Memref sig .tc .vmem S16 .f32) (h4 : a4.IsWhole) (a5 : Memref sig .tc .vmem S16x64 .f32) (h5 : a5.IsWhole) (a6 : Memref sig .tc .vmem S16 .f32) (h6 : a6.IsWhole) (a7 : Memref sig .tc .vmem S1x256x64 .f32) (h7 : a7.IsWhole) (a8 : Memref sig .tc .vmem S1x256x2048 .f32) (h8 : a8.IsWhole)
    (x0 : Vec F S1x2048x64 .f32) (x1 : Vec F S16x64 .f32) (x2 : Vec F S16 .f32) (x3 : Vec F S16x64 .f32) (x4 : Vec F S16 .f32) :
    out0_A_6 c i a2 h2 a3 h3 a4 h4 a5 h5 a6 h6 a7 h7 a8 h8 x0 x1 x2 x3 x4 = k0_pay2 (k0_pay4 x0 (queryBlock i x0) x1 x2 x3 x4) := by
  unfold out0_A_6
  rw [View.read_writes_eq_canon _ _ _ (cover0_A_6 c i a2 h2 a3 h3 a4 h4 a5 h5 a6 h6 a7 h7 a8 h8 x0 x1 x2 x3 x4)]
  unfold kernelRun0_A
  dsimp only
  sl_unfold_words
  rw [View.canon_unit_zero zeros3]
  simp only [View.readAt_eq_ld, h2.read_unread, h3.read_unread, h4.read_unread, h5.read_unread, h6.read_unread,
    View.ld_unit_zero (S := S1x2048x64) zeros3, View.ld_unit_zero (S := S16x64) zeros2, View.ld_unit_zero (S := S16) zeros1]
  rfl

end Cert.KernelIdeal.Pieces

end
-- ==== Proof.KernelValue.lean ====
/-
  From blocks to arrays: after the kernel's run each result array is the specification of the argument arrays.

  The grid has 16 x 8 points; point (b, q) works on batch element b and on its query rows 256 q … 256 q + 255. Its first
  input block is the whole 2048-row slab of batch element b of the rows array, which the host operations before the call
  lay out from the first argument; its other four input blocks are the whole weight and bias arrays. What it writes back to
  the two results are rows 256 q … 256 q + 255 of batch element b. Read through those blocks, the payloads of the body are
  the specification at the array's own index; the 128 blocks cover both result arrays, so the arrays end holding it.
-/
import proofs.«168533_j28303834480931_1_alg».proof.Proof.Gen.KernelIdeal.Value
import proofs.«168533_j28303834480931_1_alg».proof.Proof.Spec
import proofs.«168533_j28303834480931_1_alg».proof.Proof.KernelBody
import proofs.«168533_j28303834480931_1_alg».proof.Proof.KernelPieces
import Idealize.ShloMosaic.Lib.Pipeline.Value
import Idealize.ShloMosaic.Lib.StableHlo.Run

noncomputable section

namespace Cert.KernelIdeal.ArrayValue

open Cert.KernelIdeal Cert.KernelIdeal.Gen Cert.MaskedAttention
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The rows array the region finds -/

/-- The rows [16, 2048, 64] as the host operations before the call lay them out from the first argument: transposed,
    regrouped into 16 heads of 64, transposed again. -/
def rowsOf (x : (⟨S2048x2x512, .f32⟩ : BufTy).Contents (Elt Ideal)) : (⟨S16x2048x64, .f32⟩ : BufTy).Contents (Elt Ideal) :=
  transpose S16x2048x64 [1, 0, 2]
    (shapeCast S2048x16x64 (transpose S2x2048x512 [1, 0, 2] x transposes_S2048x2x512_S2x2048x512_1_0_2) shapeCasts_S2x2048x512_S2048x16x64)
    transposes_S2048x16x64_S16x2048x64_1_0_2

theorem rows_entry (c : Dev nD) :
    (V m c main_v2 : S16x2048x64.Idx → EReal) = rowsOf (m ((c : Thread nD τ).loc main_arg0)) := by
  dsimp only [Gen.V, Gen.hostOps0]
  after_results
  rfl

/-! ## The windows' index maps, decided over the 128 grid points -/

theorem idx_facts : ∀ t : Fin cfg0.N,
    win0_0.index t (0 : Fin 3) = win0_5.index t (0 : Fin 3) ∧ win0_0.index t (1 : Fin 3) = 0 ∧ win0_0.index t (2 : Fin 3) = 0
    ∧ win0_6.index t (0 : Fin 3) = win0_5.index t (0 : Fin 3) ∧ win0_6.index t (1 : Fin 3) = win0_5.index t (1 : Fin 3)
    ∧ win0_6.index t (2 : Fin 3) = 0
    ∧ win0_5.index t (2 : Fin 3) = 0 ∧ win0_5.index t (0 : Fin 3) < 16 ∧ win0_5.index t (1 : Fin 3) < 8
    ∧ k0_off1 (grid0.coords t) (0 : Fin 3) = 0 ∧ k0_off1 (grid0.coords t) (1 : Fin 3) = win0_5.index t (1 : Fin 3) * 256
    ∧ k0_off1 (grid0.coords t) (2 : Fin 3) = 0
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0 :=
  (by decide +kernel : ∀ t : Fin grid0.N, _)

/-- Every (batch element, query tile) is some grid point's. -/
theorem idx_onto : ∀ (q0 : Fin 16) (q1 : Fin 8), ∃ t : Fin cfg0.N,
    win0_5.index t (0 : Fin 3) = q0.val ∧ win0_5.index t (1 : Fin 3) = q1.val :=
  (by decide +kernel : ∀ (q0 : Fin 16) (q1 : Fin 8), ∃ t : Fin grid0.N,
    win0_5.index t (0 : Fin 3) = q0.val ∧ win0_5.index t (1 : Fin 3) = q1.val)

/-- The batch element and the query tile of grid point t. -/
def batchOf (t : Fin cfg0.N) : Fin 16 := ⟨win0_5.index t (0 : Fin 3), (idx_facts t).2.2.2.2.2.2.2.1⟩
def tileOf (t : Fin cfg0.N) : Fin 8 := ⟨win0_5.index t (1 : Fin 3), (idx_facts t).2.2.2.2.2.2.2.2.1⟩
/-- Query row r of tile q is row 256 q + r of the batch element. -/
def rowIn (q : Fin 8) (r : Fin 256) : Fin 2048 := ⟨q.val * 256 + r.val, by have := q.isLt; have := r.isLt; omega⟩

/-! ## The input blocks, by coordinates -/

/-- The first input block is the slab of batch element b of the rows array. -/
theorem slab_block (c : Dev nD) (t : Fin cfg0.N) (u : Fin 2048) (d : Fin 64) :
    (iblk m c 0 t : S1x2048x64.Idx → EReal) (ix3 (0 : Fin 1) u d) = (V m c main_v2 : S16x2048x64.Idx → EReal) (ix3 (batchOf t) u d) := by
  obtain ⟨e0, e1, e2, -⟩ := idx_facts t
  show (V m c main_v2 : S16x2048x64.Idx → EReal) (((cfg0.win 0).blk t).view.emb (ix3 (0 : Fin 1) u d)) = _
  refine congrArg _ (funext fun a => Fin.ext ?_)
  match a with
  | ⟨0, _⟩ => show win0_0.index t (0 : Fin 3) * 1 + 1 * 0 = win0_5.index t (0 : Fin 3); omega
  | ⟨1, _⟩ => show win0_0.index t (1 : Fin 3) * 2048 + 1 * u.val = u.val; omega
  | ⟨2, _⟩ => show win0_0.index t (2 : Fin 3) * 64 + 1 * d.val = d.val; omega

/-- The weight and bias blocks are the whole arrays. -/
theorem weight1_block (c : Dev nD) (t : Fin cfg0.N) :
    (iblk m c 1 t : S16x64.Idx → EReal) = (V m c main_arg1 : S16x64.Idx → EReal) := by
  obtain ⟨-, -, -, -, -, -, -, -, -, -, -, -, e0, e1, -⟩ := idx_facts t
  funext y
  show (V m c main_arg1 : S16x64.Idx → EReal) (((cfg0.win 1).blk t).view.emb y) = _
  refine congrArg _ (funext fun a => Fin.ext ?_)
  match a with
  | ⟨0, _⟩ => show win0_1.index t (0 : Fin 2) * 16 + 1 * (y 0).val = (y 0).val; omega
  | ⟨1, _⟩ => show win0_1.index t (1 : Fin 2) * 64 + 1 * (y 1).val = (y 1).val; omega

theorem bias1_block (c : Dev nD) (t : Fin cfg0.N) :
    (iblk m c 2 t : S16.Idx → EReal) = (V m c main_arg2 : S16.Idx → EReal) := by
  obtain ⟨-, -, -, -, -, -, -, -, -, -, -, -, -, -, e0, -⟩ := idx_facts t
  funext y
  show (V m c main_arg2 : S16.Idx → EReal) (((cfg0.win 2).blk t).view.emb y) = _
  refine congrArg _ (funext fun a => Fin.ext ?_)
  match a with
  | ⟨0, _⟩ => show win0_2.index t (0 : Fin 1) * 16 + 1 * (y 0).val = (y 0).val; omega

theorem weight2_block (c : Dev nD) (t : Fin cfg0.N) :
    (iblk m c 3 t : S16x64.Idx → EReal) = (V m c main_arg3 : S16x64.Idx → EReal) := by
  obtain ⟨-, -, -, -, -, -, -, -, -, -, -, -, -, -, -, e0, e1, -⟩ := idx_facts t
  funext y
  show (V m c main_arg3 : S16x64.Idx → EReal) (((cfg0.win 3).blk t).view.emb y) = _
  refine congrArg _ (funext fun a => Fin.ext ?_)
  match a with
  | ⟨0, _⟩ => show win0_3.index t (0 : Fin 2) * 16 + 1 * (y 0).val = (y 0).val; omega
  | ⟨1, _⟩ => show win0_3.index t (1 : Fin 2) * 64 + 1 * (y 1).val = (y 1).val; omega

theorem bias2_block (c : Dev nD) (t : Fin cfg0.N) :
    (iblk m c 4 t : S16.Idx → EReal) = (V m c main_arg4 : S16.Idx → EReal) := by
  obtain ⟨-, -, -, -, -, -, -, -, -, -, -, -, -, -, -, -, -, e0⟩ := idx_facts t
  funext y
  show (V m c main_arg4 : S16.Idx → EReal) (((cfg0.win 4).blk t).view.emb y) = _
  refine congrArg _ (funext fun a => Fin.ext ?_)
  match a with
  | ⟨0, _⟩ => show win0_4.index t (0 : Fin 1) * 16 + 1 * (y 0).val = (y 0).val; omega

/-- All rows of the block's batch element, as the specification reads them. -/
theorem keyRows_block (c : Dev nD) (t : Fin cfg0.N) :
    Body.keyRows (iblk m c 0 t : S1x2048x64.Idx → EReal) = rowOf (V m c main_v2 : S16x2048x64.Idx → EReal) (batchOf t) :=
  funext fun u => funext fun d => slab_block m c t u d

/-- Query row r of the block is row 256 q + r of the batch element. -/
theorem queryRow_block (c : Dev nD) (t : Fin cfg0.N) (r : Fin 256) :
    Body.queryRow (Pieces.queryBlock (grid0.coords t) (iblk m c 0 t : S1x2048x64.Idx → EReal)) r
      = rowOf (V m c main_v2 : S16x2048x64.Idx → EReal) (batchOf t) (rowIn (tileOf t) r) := by
  obtain ⟨-, -, -, -, -, -, -, -, -, o0, o1, o2, -⟩ := idx_facts t
  funext d
  show (iblk m c 0 t : S1x2048x64.Idx → EReal)
      ((Rect.unit (s := S1x2048x64) (k0_off1 (grid0.coords t)) S1x256x64.size (k0_off1_inb (grid0.coords t))).emb (ix3 (0 : Fin 1) r d)) = _
  refine Eq.trans (congrArg _ (funext fun a => Fin.ext ?_)) (slab_block m c t (rowIn (tileOf t) r) d)
  rw [Rect.emb_apply]
  match a with
  | ⟨0, _⟩ => show k0_off1 (grid0.coords t) (0 : Fin 3) + 1 * 0 = 0; omega
  | ⟨1, _⟩ => show k0_off1 (grid0.coords t) (1 : Fin 3) + 1 * r.val = win0_5.index t (1 : Fin 3) * 256 + r.val; omega
  | ⟨2, _⟩ => show k0_off1 (grid0.coords t) (2 : Fin 3) + 1 * d.val = d.val; omega

/-! ## What a point writes back -/

/-- Entry (u, r, d) of point t's first output block sits at (b, 256 q + r, d) of the first result. -/
theorem mixed_emb (t : Fin cfg0.N) (u : Fin 1) (r : Fin 256) (d : Fin 64) :
    ((cfg0.win 5).blk t).view.emb (ix3 u r d) = (ix3 (batchOf t) (rowIn (tileOf t) r) d : S16x2048x64.Idx) := by
  obtain ⟨-, -, -, -, -, -, e2, -⟩ := idx_facts t
  have hu : u.val = 0 := by omega
  refine funext fun a => Fin.ext ?_
  match a with
  | ⟨0, _⟩ => show win0_5.index t (0 : Fin 3) * 1 + 1 * u.val = win0_5.index t (0 : Fin 3); omega
  | ⟨1, _⟩ => show win0_5.index t (1 : Fin 3) * 256 + 1 * r.val = win0_5.index t (1 : Fin 3) * 256 + r.val; omega
  | ⟨2, _⟩ => show win0_5.index t (2 : Fin 3) * 64 + 1 * d.val = d.val; omega

/-- Entry (u, r, k) of point t's second output block sits at (b, 256 q + r, k) of the second result. -/
theorem kept_emb (t : Fin cfg0.N) (u : Fin 1) (r : Fin 256) (k : Fin 2048) :
    ((cfg0.win 6).blk t).view.emb (ix3 u r k) = (ix3 (batchOf t) (rowIn (tileOf t) r) k : S16x2048x2048.Idx) := by
  obtain ⟨-, -, -, e0, e1, e2, -⟩ := idx_facts t
  have hu : u.val = 0 := by omega
  refine funext fun a => Fin.ext ?_
  match a with
  | ⟨0, _⟩ => show win0_6.index t (0 : Fin 3) * 1 + 1 * u.val = win0_5.index t (0 : Fin 3); omega
  | ⟨1, _⟩ => show win0_6.index t (1 : Fin 3) * 256 + 1 * r.val = win0_5.index t (1 : Fin 3) * 256 + r.val; omega
  | ⟨2, _⟩ => show win0_6.index t (2 : Fin 3) * 2048 + 1 * k.val = k.val; omega

/-- What point t writes back to the first result is its block of the specification's mixed rows. -/
theorem flushed5_eq (c : Dev nD) (t : Fin cfg0.N) :
    (dats m 0 c).flushed 5 t = ((cfg0.win 5).blk t).view.read (Elt Ideal) (mixedAll (V m c main_arg1) (V m c main_arg2) (V m c main_arg3) (V m c main_arg4) (V m c main_v2)) := by
  rw [Value.flushed5_A, Pieces.mixedPiece c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t)]
  refine funext fun (y : S1x256x64.Idx) => ?_
  obtain ⟨u, r, d, rfl⟩ : ∃ (u : Fin 1) (r : Fin 256) (d : Fin 64), y = ix3 u r d := ⟨y 0, y 1, y 2, eq_ix3 y⟩
  refine (Body.mixedBlock_apply (iblk m c 0 t) (Pieces.queryBlock (grid0.coords t) (iblk m c 0 t)) (iblk m c 1 t) (iblk m c 2 t)
    (iblk m c 3 t) (iblk m c 4 t) u r d).trans ?_
  rw [weight1_block, bias1_block, weight2_block, bias2_block, keyRows_block, queryRow_block]
  show _ = mixedAll (V m c main_arg1) (V m c main_arg2) (V m c main_arg3) (V m c main_arg4) (V m c main_v2) (((cfg0.win 5).blk t).view.emb (ix3 u r d))
  rw [mixed_emb]
  rfl

/-- What point t writes back to the second result is its block of the specification's kept similarities. -/
theorem flushed6_eq (c : Dev nD) (t : Fin cfg0.N) :
    (dats m 0 c).flushed 6 t = ((cfg0.win 6).blk t).view.read (Elt Ideal) (keptAll (V m c main_arg1) (V m c main_arg2) (V m c main_arg3) (V m c main_arg4) (V m c main_v2)) := by
  rw [Value.flushed6_A, Pieces.keptPiece c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t)]
  refine funext fun (y : S1x256x2048.Idx) => ?_
  obtain ⟨u, r, k, rfl⟩ : ∃ (u : Fin 1) (r : Fin 256) (k : Fin 2048), y = ix3 u r k := ⟨y 0, y 1, y 2, eq_ix3 y⟩
  refine (Body.keptStore_apply (iblk m c 0 t) (Pieces.queryBlock (grid0.coords t) (iblk m c 0 t)) (iblk m c 1 t) (iblk m c 2 t)
    (iblk m c 3 t) (iblk m c 4 t) u r k).trans ?_
  rw [weight1_block, bias1_block, weight2_block, bias2_block, keyRows_block, queryRow_block]
  show _ = keptAll (V m c main_arg1) (V m c main_arg2) (V m c main_arg3) (V m c main_arg4) (V m c main_v2) (((cfg0.win 6).blk t).view.emb (ix3 u r k))
  rw [kept_emb]
  rfl

/-! ## The blocks cover the results -/

theorem mixed_cover (i : S16x2048x64.Idx) :
    ∃ t : Fin cfg0.N, (cfg0.win 5).flush t = true ∧ i ∈ ((cfg0.win 5).blk t).view.set := by
  have h0 : (i 0).val < 16 := (i 0).isLt
  have h1 : (i 1).val < 2048 := (i 1).isLt
  have h2 : (i 2).val < 64 := (i 2).isLt
  obtain ⟨t, q0, q1⟩ := idx_onto ⟨(i 0).val, h0⟩ ⟨(i 1).val / 256, by omega⟩
  have q0' : win0_5.index t (0 : Fin 3) = (i 0).val := q0
  have q1' : win0_5.index t (1 : Fin 3) = (i 1).val / 256 := q1
  obtain ⟨-, -, -, -, -, -, e2, -⟩ := idx_facts t
  refine ⟨t, flush0_5 t, ?_⟩
  show i ∈ ((View.whole main_v3_0).slice (win0_5.rect t)).set
  rw [View.set_slice_whole, Rect.mem_set_unit]
  intro a
  match a with
  | ⟨0, _⟩ =>
    show win0_5.index t (0 : Fin 3) * 1 ≤ (i 0).val ∧ (i 0).val < win0_5.index t (0 : Fin 3) * 1 + 1
    omega
  | ⟨1, _⟩ =>
    show win0_5.index t (1 : Fin 3) * 256 ≤ (i 1).val ∧ (i 1).val < win0_5.index t (1 : Fin 3) * 256 + 256
    omega
  | ⟨2, _⟩ =>
    show win0_5.index t (2 : Fin 3) * 64 ≤ (i 2).val ∧ (i 2).val < win0_5.index t (2 : Fin 3) * 64 + 64
    omega

theorem kept_cover (i : S16x2048x2048.Idx) :
    ∃ t : Fin cfg0.N, (cfg0.win 6).flush t = true ∧ i ∈ ((cfg0.win 6).blk t).view.set := by
  have h0 : (i 0).val < 16 := (i 0).isLt
  have h1 : (i 1).val < 2048 := (i 1).isLt
  have h2 : (i 2).val < 2048 := (i 2).isLt
  obtain ⟨t, q0, q1⟩ := idx_onto ⟨(i 0).val, h0⟩ ⟨(i 1).val / 256, by omega⟩
  have q0' : win0_5.index t (0 : Fin 3) = (i 0).val := q0
  have q1' : win0_5.index t (1 : Fin 3) = (i 1).val / 256 := q1
  obtain ⟨-, -, -, e0, e1, e2, -⟩ := idx_facts t
  refine ⟨t, flush0_6 t, ?_⟩
  show i ∈ ((View.whole main_v3_1).slice (win0_6.rect t)).set
  rw [View.set_slice_whole, Rect.mem_set_unit]
  intro a
  match a with
  | ⟨0, _⟩ =>
    show win0_6.index t (0 : Fin 3) * 1 ≤ (i 0).val ∧ (i 0).val < win0_6.index t (0 : Fin 3) * 1 + 1
    omega
  | ⟨1, _⟩ =>
    show win0_6.index t (1 : Fin 3) * 256 ≤ (i 1).val ∧ (i 1).val < win0_6.index t (1 : Fin 3) * 256 + 256
    omega
  | ⟨2, _⟩ =>
    show win0_6.index t (2 : Fin 3) * 2048 ≤ (i 2).val ∧ (i 2).val < win0_6.index t (2 : Fin 3) * 2048 + 2048
    omega

/-! ## The results after the run -/

theorem mixed_final (c : Dev nD) : (dats m 0 c).arrAt 5 cfg0.N = mixedAll (V m c main_arg1) (V m c main_arg2) (V m c main_arg3) (V m c main_arg4) (V m c main_v2) :=
  (dats m 0 c).arrAt_eq_of_cover 5 _ (fun t _ => flushed5_eq m c t) mixed_cover

theorem kept_final (c : Dev nD) : (dats m 0 c).arrAt 6 cfg0.N = keptAll (V m c main_arg1) (V m c main_arg2) (V m c main_arg3) (V m c main_arg4) (V m c main_v2) :=
  (dats m 0 c).arrAt_eq_of_cover 6 _ (fun t _ => flushed6_eq m c t) kept_cover

/-- The arrays the region finds, as functions of the arguments. -/
theorem entry_args (c : Dev nD) :
    mixedAll (V m c main_arg1) (V m c main_arg2) (V m c main_arg3) (V m c main_arg4) (V m c main_v2) = mixedAll (m ((c : Thread nD τ).loc main_arg1)) (m ((c : Thread nD τ).loc main_arg2)) (m ((c : Thread nD τ).loc main_arg3)) (m ((c : Thread nD τ).loc main_arg4)) (rowsOf (m ((c : Thread nD τ).loc main_arg0)))
    ∧ keptAll (V m c main_arg1) (V m c main_arg2) (V m c main_arg3) (V m c main_arg4) (V m c main_v2) = keptAll (m ((c : Thread nD τ).loc main_arg1)) (m ((c : Thread nD τ).loc main_arg2)) (m ((c : Thread nD τ).loc main_arg3)) (m ((c : Thread nD τ).loc main_arg4)) (rowsOf (m ((c : Thread nD τ).loc main_arg0))) := by
  rw [V_main_arg1, V_main_arg2, V_main_arg3, V_main_arg4, rows_entry]
  exact ⟨rfl, rfl⟩

/-- The kernel's run: both results at the specification of the arguments, the arguments unchanged. -/
theorem run : θ_run defs (onTc (τ := τ) (main (F := Ideal))) ⟨m, fun _ => 0, ρ⟩ fun r => ∀ c : Dev nD,
      r.2.mem ((c : Thread nD τ).loc main_v3_0) = mixedAll (m ((c : Thread nD τ).loc main_arg1)) (m ((c : Thread nD τ).loc main_arg2)) (m ((c : Thread nD τ).loc main_arg3)) (m ((c : Thread nD τ).loc main_arg4)) (rowsOf (m ((c : Thread nD τ).loc main_arg0)))
      ∧ r.2.mem ((c : Thread nD τ).loc main_v3_1) = keptAll (m ((c : Thread nD τ).loc main_arg1)) (m ((c : Thread nD τ).loc main_arg2)) (m ((c : Thread nD τ).loc main_arg3)) (m ((c : Thread nD τ).loc main_arg4)) (rowsOf (m ((c : Thread nD τ).loc main_arg0)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
      ⟨(h c).1.trans ((mixed_final m c).trans (entry_args m c).1),
       (h c).2.1.trans ((kept_final m c).trans (entry_args m c).2),
       (h c).2.2⟩)
    (Value.run_blocks m ρ)

end Cert.KernelIdeal.ArrayValue

end
-- ==== Proof.RefValue.lean ====
/-
  The reference program's two results are the specification, index by index.

  Its rows array is the argument transposed, regrouped into 16 heads of 64 and transposed again; every later stage is
  read at an index from the stage before, in the order the program computes them: the two feature arrays, their batched
  inner products, the threshold, the indicator, the row maximum (a fold of max over the last axis, met once more with
  minus infinity, which changes nothing), the shifted exponentials, their row sums (from zero), the weights, and the
  final batched product with the rows. An index is always written by its coordinates: batch element b, rows s and t,
  feature p, entry d.
-/
import proofs.«168533_j28303834480931_1_alg».proof.Proof.Gen.ReferenceIdeal.Read
import proofs.«168533_j28303834480931_1_alg».proof.Proof.Spec
import proofs.«168533_j28303834480931_1_alg».proof.Proof.LibOneBit

noncomputable section

namespace Cert.ReferenceIdeal.RefValue

open Cert.ReferenceIdeal Cert.ReferenceIdeal.Gen Cert.ReferenceIdeal.Read Cert.MaskedAttention
open Idealize.ShloMosaic Idealize.ShloMosaic.ValueIdx
open scoped BigOperators

variable (x0 : (⟨S2048x2x512, .f32⟩ : BufTy).Contents (Elt Ideal)) (x1 : (⟨S16x64, .f32⟩ : BufTy).Contents (Elt Ideal))
  (x2 : (⟨S16, .f32⟩ : BufTy).Contents (Elt Ideal)) (x3 : (⟨S16x64, .f32⟩ : BufTy).Contents (Elt Ideal))
  (x4 : (⟨S16, .f32⟩ : BufTy).Contents (Elt Ideal))

/-- The rows [16, 2048, 64] as the reference lays them out from its first argument. -/
abbrev rows : SRows.Idx → EReal := val_main_v2 (F := Ideal) x0

/-! ## The index functions of the generated stages, by coordinates -/

theorem lidx3 (b : Fin 16) (s : Fin 2048) (p : Fin 16) (k : Fin 64) : lidx_main_v3 (ix3 b s p) k = ix3 b s k :=
  funext fun a => by match a with | ⟨0, _⟩ => rfl | ⟨1, _⟩ => rfl | ⟨2, _⟩ => rfl
theorem ridx3 (b : Fin 16) (s : Fin 2048) (p : Fin 16) (k : Fin 64) : ridx_main_v3 (ix3 b s p) k = ix2 p k :=
  funext fun a => by match a with | ⟨0, _⟩ => rfl | ⟨1, _⟩ => rfl
theorem lidx8 (b : Fin 16) (s : Fin 2048) (p : Fin 16) (k : Fin 64) : lidx_main_v8 (ix3 b s p) k = ix3 b s k :=
  funext fun a => by match a with | ⟨0, _⟩ => rfl | ⟨1, _⟩ => rfl | ⟨2, _⟩ => rfl
theorem ridx8 (b : Fin 16) (s : Fin 2048) (p : Fin 16) (k : Fin 64) : ridx_main_v8 (ix3 b s p) k = ix2 p k :=
  funext fun a => by match a with | ⟨0, _⟩ => rfl | ⟨1, _⟩ => rfl
theorem bias5 (b : Fin 16) (s : Fin 2048) (p : Fin 16) : idx_main_v4 (idx_main_v5 (ix3 b s p)) = ix1 p :=
  funext fun a => by match a with | ⟨0, _⟩ => rfl
theorem bias10 (b : Fin 16) (s : Fin 2048) (p : Fin 16) : idx_main_v9 (idx_main_v10 (ix3 b s p)) = ix1 p :=
  funext fun a => by match a with | ⟨0, _⟩ => rfl
theorem lidx13 (b : Fin 16) (s t : Fin 2048) (k : Fin 16) : lidx_main_v13 (ix3 b s t) k = ix3 b s k :=
  funext fun a => by match a with | ⟨0, _⟩ => rfl | ⟨1, _⟩ => rfl | ⟨2, _⟩ => rfl
theorem ridx13 (b : Fin 16) (s t : Fin 2048) (k : Fin 16) : ridx_main_v13 (ix3 b s t) k = ix3 b t k :=
  funext fun a => by match a with | ⟨0, _⟩ => rfl | ⟨1, _⟩ => rfl | ⟨2, _⟩ => rfl
theorem colOfRow (b : Fin 16) (s t : Fin 2048) : idx_main_v23 (idx_main_v24 (ix3 b s t)) = ix2 b s :=
  funext fun a => by match a with | ⟨0, _⟩ => rfl | ⟨1, _⟩ => rfl
theorem colOfRow' (b : Fin 16) (s t : Fin 2048) : idx_main_v28 (idx_main_v29 (ix3 b s t)) = ix2 b s :=
  funext fun a => by match a with | ⟨0, _⟩ => rfl | ⟨1, _⟩ => rfl
theorem sumIdx (b : Fin 16) (s : Fin 2048) (k : Fin 2048) : idx_main_v27 (ix2 b s) k = ix3 b s k :=
  funext fun a => by match a with | ⟨0, _⟩ => rfl | ⟨1, _⟩ => rfl | ⟨2, _⟩ => rfl
theorem lidx32 (b : Fin 16) (s : Fin 2048) (d : Fin 64) (k : Fin 2048) : lidx_main_v32 (ix3 b s d) k = ix3 b s k :=
  funext fun a => by match a with | ⟨0, _⟩ => rfl | ⟨1, _⟩ => rfl | ⟨2, _⟩ => rfl
theorem ridx32 (b : Fin 16) (s : Fin 2048) (d : Fin 64) (k : Fin 2048) : ridx_main_v32 (ix3 b s d) k = ix3 b k d :=
  funext fun a => by match a with | ⟨0, _⟩ => rfl | ⟨1, _⟩ => rfl | ⟨2, _⟩ => rfl

/-! ## The stages -/

/-- The first feature array: feature p of row (b, s) under the first weights. -/
theorem feature1_eq (b : Fin 16) (s : Fin 2048) (p : Fin 16) :
    val_main_v7 (F := Ideal) x0 x1 x2 (ix3 b s p) = feature x1 x2 (rowOf (rows x0) b s) p := by
  rw [val_main_v7_apply, val_main_v6_apply, val_main_v3_apply, val_main_v5_apply, val_main_v4_apply,
    val_main_call0_v0_apply, val_main_call0_cst_apply, bias5]
  simp only [lidx3, ridx3]
  rfl

/-- The second feature array. -/
theorem feature2_eq (b : Fin 16) (s : Fin 2048) (p : Fin 16) :
    val_main_v12 (F := Ideal) x0 x3 x4 (ix3 b s p) = feature x3 x4 (rowOf (rows x0) b s) p := by
  rw [val_main_v12_apply, val_main_v11_apply, val_main_v8_apply, val_main_v10_apply, val_main_v9_apply,
    val_main_call1_v0_apply, val_main_call1_cst_apply, bias10]
  simp only [lidx8, ridx8]
  rfl

/-- The batched inner products of the features: the similarity of rows s and t of batch element b. -/
theorem similarity_eq (b : Fin 16) (s t : Fin 2048) :
    val_main_v13 (F := Ideal) x0 x1 x2 x3 x4 (ix3 b s t)
      = similarity x1 x2 x3 x4 (rowOf (rows x0) b s) (rowOf (rows x0) b) t := by
  rw [val_main_v13_apply]
  unfold similarity
  refine Finset.sum_congr rfl fun k _ => ?_
  rw [lidx13, ridx13, feature1_eq, feature2_eq]

/-- The thresholded similarities: the reference's second result. -/
theorem kept_eq (b : Fin 16) (s t : Fin 2048) :
    val_main_v16 (F := Ideal) x0 x1 x2 x3 x4 (ix3 b s t)
      = kept x1 x2 x3 x4 (rowOf (rows x0) b s) (rowOf (rows x0) b) t := by
  rw [val_main_v16_apply, val_main_v15_apply, val_main_v14_apply, val_main_cst_apply, val_main_call2_v1_apply,
    val_main_call2_v0_apply, val_main_cst_0_apply, similarity_eq]
  rfl

/-- The indicator of a non-zero kept similarity. -/
theorem indicator_eq (b : Fin 16) (s t : Fin 2048) :
    val_main_v19 (F := Ideal) x0 x1 x2 x3 x4 (ix3 b s t)
      = indicator x1 x2 x3 x4 (rowOf (rows x0) b s) (rowOf (rows x0) b) t := by
  rw [val_main_v19_apply, val_main_v18_apply, val_main_v17_apply, val_main_cst_1_apply, kept_eq]
  rfl

/-- Over row (b, s) of the similarities, the index with key row t put back on the reduced axis is (b, s, t). -/
theorem lift_row3 (h : S16x2048x2048.Reduces [2] S16x2048) (b : Fin 16) (s : Fin 2048) (t : Fin 2048) :
    h.lift (ix2 b s) t = ix3 b s t := by
  funext a
  refine Fin.ext ?_
  match a with
  | ⟨0, _⟩ => rfl
  | ⟨1, _⟩ => rfl
  | ⟨2, _⟩ => rfl

/-- The row maximum: the fold of max over the last axis, from minus infinity. -/
theorem rowMax_eq (b : Fin 16) (s : Fin 2048) :
    val_main_v22 (F := Ideal) x0 x1 x2 x3 x4 (ix2 b s) = rowMax x1 x2 x3 x4 (rowOf (rows x0) b s) (rowOf (rows x0) b) := by
  rw [val_main_v22_apply, val_main_v21_apply, val_main_cst_3_apply]
  unfold val_main_v20
  have hred : S16x2048x2048.Reduces [2] S16x2048 := by decide
  rw [Host.reduce_eq_fold_single FloatOps.maximumf _ _ reducesTo_S16x2048x2048_S16x2048_d2 hred h_S_]
  refine (Cert.LibOneBit.max_negInf_word _).trans ?_
  unfold rowMax
  refine congrArg (fun f : Fin 2048 → EReal => (Finset.univ : Finset (Fin 2048)).fold max (Ideal.ofBits .f32 0xFF800000#32) f)
    (funext fun (t : Fin 2048) => ?_)
  exact (congrArg (val_main_v16 (F := Ideal) x0 x1 x2 x3 x4) (lift_row3 hred b s t)).trans (kept_eq x0 x1 x2 x3 x4 b s t)

/-- The shifted exponentials exp (a − max a). -/
theorem expShifted_eq (b : Fin 16) (s t : Fin 2048) :
    val_main_v26 (F := Ideal) x0 x1 x2 x3 x4 (ix3 b s t)
      = expShifted x1 x2 x3 x4 (rowOf (rows x0) b s) (rowOf (rows x0) b) t := by
  rw [val_main_v26_apply, val_main_v25_apply, val_main_v24_apply, val_main_v23_apply, colOfRow, rowMax_eq, kept_eq]
  rfl

/-- The row sums of the shifted exponentials, started from zero. -/
theorem expSum_eq (b : Fin 16) (s : Fin 2048) :
    val_main_v27 (F := Ideal) x0 x1 x2 x3 x4 (ix2 b s)
      = ∑ u : Fin 2048, expShifted x1 x2 x3 x4 (rowOf (rows x0) b s) (rowOf (rows x0) b) u := by
  rw [val_main_v27_apply, val_main_cst_4_apply]
  refine (congrArg (· + _) Cert.LibOneBit.zero_word).trans ((zero_add _).trans ?_)
  refine Finset.sum_congr rfl fun u _ => ?_
  rw [sumIdx, expShifted_eq]

/-- The weights. -/
theorem weight_eq (b : Fin 16) (s t : Fin 2048) :
    val_main_v31 (F := Ideal) x0 x1 x2 x3 x4 (ix3 b s t)
      = weight x1 x2 x3 x4 (rowOf (rows x0) b s) (rowOf (rows x0) b) t := by
  rw [val_main_v31_apply, val_main_v30_apply, val_main_v29_apply, val_main_v28_apply, colOfRow', expSum_eq,
    expShifted_eq, indicator_eq]
  rfl

/-- The reference's first result is the specification's mixed rows. -/
theorem mixed_eq : val_main_v32 (F := Ideal) x0 x1 x2 x3 x4 = mixedAll x1 x2 x3 x4 (rows x0) := by
  funext i
  obtain ⟨b, s, d, rfl⟩ : ∃ (b : Fin 16) (s : Fin 2048) (d : Fin 64), i = ix3 b s d := ⟨i 0, i 1, i 2, eq_ix3 i⟩
  rw [val_main_v32_apply]
  show _ = mixed x1 x2 x3 x4 (rowOf (rows x0) b s) (rowOf (rows x0) b) d
  unfold mixed
  refine Finset.sum_congr rfl fun t _ => ?_
  rw [lidx32, ridx32, weight_eq]
  rfl

/-- The reference's second result is the specification's kept similarities. -/
theorem keptAll_eq : val_main_v16 (F := Ideal) x0 x1 x2 x3 x4 = keptAll x1 x2 x3 x4 (rows x0) := by
  funext i
  obtain ⟨b, s, t, rfl⟩ : ∃ (b : Fin 16) (s t : Fin 2048), i = ix3 b s t := ⟨i 0, i 1, i 2, eq_ix3 i⟩
  exact kept_eq x0 x1 x2 x3 x4 b s t

end Cert.ReferenceIdeal.RefValue

end
-- ==== Proof.lean ====
/-
  The certificate of a thresholded-similarity attention kernel against its plain reference, on the extended reals.

  Both programs first lay their rows out from the first argument by the same three host operations (transpose, regroup
  into 16 heads of 64, transpose). For every batch element and query row they then compute: two feature vectors
  relu (x · wᵀ + β) of every row; the inner products of the query's first features with every row's second features; the
  same with everything below the threshold set to zero (the second result); and the rows mixed with weights
  exp (a − max a) / Σ exp (a − max a), switched off where the kept similarity is zero (the first result).

  The kernel works on 16 x 8 grid points, 256 query rows of one batch element at a time, and writes each block of both
  results once; the reference computes whole arrays. Index by index both are the one function of Proof/Spec.lean:
  Proof/KernelValue.lean reads the kernel's run (over its body, Proof/KernelBody.lean, and what a point leaves in its
  blocks, Proof/KernelPieces.lean) and Proof/RefValue.lean reads the reference's. The two sides differ only in how they
  spell the same sums and in three places where the spelling does not change the value on the extended reals: an
  unordered comparison answers as its ordered twin, a one-bit word read unsigned or widened and read signed is the bit,
  and a maximum met once more with minus infinity is itself. No law used needs the inputs to be finite.

  The kernel's idealization rewrote nothing, so the preservation claim is trivial; the three frames are the generated
  frames and the reference's generated run.
-/
import proofs.«168533_j28303834480931_1_alg».proof.Defs
import proofs.«168533_j28303834480931_1_alg».proof.Proof.Gen.Kernel
import proofs.«168533_j28303834480931_1_alg».proof.Proof.Gen.Kernel.Skeleton
import proofs.«168533_j28303834480931_1_alg».proof.Proof.Gen.Kernel.Launch
import proofs.«168533_j28303834480931_1_alg».proof.Proof.Gen.Kernel.Points
import proofs.«168533_j28303834480931_1_alg».proof.Proof.Gen.Kernel.Frame
import proofs.«168533_j28303834480931_1_alg».proof.Proof.Gen.KernelIdeal
import proofs.«168533_j28303834480931_1_alg».proof.Proof.Gen.KernelIdeal.Skeleton
import proofs.«168533_j28303834480931_1_alg».proof.Proof.Gen.KernelIdeal.Launch
import proofs.«168533_j28303834480931_1_alg».proof.Proof.Gen.KernelIdeal.Points
import proofs.«168533_j28303834480931_1_alg».proof.Proof.Gen.KernelIdeal.Frame
import proofs.«168533_j28303834480931_1_alg».proof.Proof.Gen.ReferenceIdeal
import proofs.«168533_j28303834480931_1_alg».proof.Proof.Gen.Pre_finite_inputs
import proofs.«168533_j28303834480931_1_alg».proof.Proof.Gen.KernelIdeal.Value
import proofs.«168533_j28303834480931_1_alg».proof.Proof.Gen.ReferenceIdeal.Run
import proofs.«168533_j28303834480931_1_alg».proof.Proof.Gen.ReferenceIdeal.Read
import proofs.«168533_j28303834480931_1_alg».proof.Proof.KernelValue
import proofs.«168533_j28303834480931_1_alg».proof.Proof.RefValue
import Idealize.ShloMosaic.Adequacy
import Idealize.ShloMosaic.Init

noncomputable section

namespace Cert.Proof

open Idealize.ShloMosaic Idealize.ShloMosaic.TcCoe Idealize.SL.Sem Cert.MaskedAttention

/-- Both programs lay the rows out from the first argument by the same three host operations. -/
theorem rows_same (x : (⟨Cert.KernelIdeal.S2048x2x512, .f32⟩ : BufTy).Contents (Elt Ideal)) :
    Cert.ReferenceIdeal.RefValue.rows x = Cert.KernelIdeal.ArrayValue.rowsOf x := rfl

theorem frame_kernel : Cert.frame_Kernel := fun m ρ _ => Cert.Kernel.Gen.frame m ρ

theorem frame_kernelIdeal : Cert.frame_KernelIdeal := fun m ρ _ => Cert.KernelIdeal.Gen.frame m ρ

/-- The reference's frame is its generated run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the arguments both programs end with the specification of those arguments in their
    two results. -/
theorem algebraic : Cert.algebraic_KernelIdeal_ReferenceIdeal := by
  intro m ρ m' ρ' _ hagree
  refine ⟨_, _, Cert.KernelIdeal.ArrayValue.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v32_eq, Cert.ReferenceIdeal.RefValue.mixed_eq, rows_same,
      (hagree c).1, (hagree c).2.1, (hagree c).2.2.1, (hagree c).2.2.2.1, (hagree c).2.2.2.2]
  · rw [(h c).2.1, Cert.ReferenceIdeal.Read.val_main_v16_eq, Cert.ReferenceIdeal.RefValue.keptAll_eq, rows_same,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
